-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x64 : Shape := ⟨2, ![1024, 64]⟩
abbrev S512x64x64 : Shape := ⟨3, ![512, 64, 64]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S512x64x64 : S_.BroadcastsInDim S512x64x64 (![] : Fin 0 → Fin S512x64x64.rank)
  reducesTo_S512x64x64_S_d0_1_2 : S512x64x64.ReducesTo [0, 1, 2] S_

variable [Facts]

def fn_part1 {F : FTy → Type} [FloatOps F] (main_arg4 : FVec F S512x64x64 .f32) (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  let main_v19 : FVec F S512x64x64 .f32 := Host.absf main_arg4
  let main_cst_6 : FVec F S_ .f32 := constant S_ .f32 0x7F800000#32
  let main_v20 : FVec F S512x64x64 .f32 := broadcastInDim S512x64x64 ![] bcast_S_S512x64x64 main_cst_6
  let main_v21 : IVec S512x64x64 1 := cmpf .olt main_v19 main_v20
  let main_c_7 : IVec S_ 1 := constantI S_ 1 1#1
  let main_v22 : IVec S_ 1 := (fun x v => Host.reduce IntOp.andi x v reducesTo_S512x64x64_S_d0_1_2 h_S_) main_v21 main_c_7
  let main_v23 : IVec S_ 1 := andi main_v18 main_v22
  main_v23

def fn {F : FTy → Type} [FloatOps F] (main_arg0 : FVec F S16384x1024 .f32) (main_arg1 : FVec F S16384x1024 .f32) (main_arg2 : FVec F S1024x64 .f32) (main_arg3 : FVec F S1024x64 .f32) (main_arg4 : FVec F S512x64x64 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_arg4 main_v13 main_v16
-- ==== Kernel.lean ====
abbrev S16384x1024 : Shape := ⟨2, ![16384, 1024]⟩
abbrev S1024x64 : Shape := ⟨2, ![1024, 64]⟩
abbrev S512x64x64 : Shape := ⟨3, ![512, 64, 64]⟩
abbrev S512x4096 : Shape := ⟨2, ![512, 4096]⟩
abbrev S4096x512 : Shape := ⟨2, ![4096, 512]⟩
abbrev S_ : Shape := ⟨0, ![]⟩
abbrev S2048x128 : Shape := ⟨2, ![2048, 128]⟩
abbrev S1 : Shape := ⟨1, ![1]⟩
abbrev S2 : Shape := ⟨1, ![2]⟩
abbrev S16384x512 : Shape := ⟨2, ![16384, 512]⟩
abbrev S1024x1024 : Shape := ⟨2, ![1024, 1024]⟩
abbrev S1024x512 : Shape := ⟨2, ![1024, 512]⟩
abbrev S1024x2048 : Shape := ⟨2, ![1024, 2048]⟩
abbrev S1024x128 : Shape := ⟨2, ![1024, 128]⟩
abbrev S1024x64x1 : Shape := ⟨3, ![1024, 64, 1]⟩
abbrev S1024x1x64 : Shape := ⟨3, ![1024, 1, 64]⟩
abbrev S1024x64x64 : Shape := ⟨3, ![1024, 64, 64]⟩
abbrev S1024x4096 : Shape := ⟨2, ![1024, 4096]⟩

abbrev nBuf : Space → Nat
  | .hbm => 25
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x64, .f32⟩
  | .hbm, ⟨3, _⟩ => ⟨S1024x64, .f32⟩
  | .hbm, ⟨4, _⟩ => ⟨S512x64x64, .f32⟩
  | .hbm, ⟨5, _⟩ => ⟨S512x4096, .f32⟩
  | .hbm, ⟨6, _⟩ => ⟨S4096x512, .f32⟩
  | .hbm, ⟨7, _⟩ => ⟨S4096x512, .bf16⟩
  | .hbm, ⟨8, _⟩ => ⟨S_, .bf16⟩
  | .hbm, ⟨9, _⟩ => ⟨S2048x128, .bf16⟩
  | .hbm, ⟨10, _⟩ => ⟨S1024x64, .bf16⟩
  | .hbm, ⟨11, _⟩ => ⟨S_, .i32⟩
  | .hbm, ⟨12, _⟩ => ⟨S1, .i32⟩
  | .hbm, ⟨13, _⟩ => ⟨S_, .i32⟩
  | .hbm, ⟨14, _⟩ => ⟨S1, .i32⟩
  | .hbm, ⟨15, _⟩ => ⟨S2, .i32⟩
  | .hbm, ⟨16, _⟩ => ⟨S2048x128, .bf16⟩
  | .hbm, ⟨17, _⟩ => ⟨S1024x64, .bf16⟩
  | .hbm, ⟨18, _⟩ => ⟨S_, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S2, .i32⟩
  | .hbm, ⟨23, _⟩ => ⟨S2048x128, .bf16⟩
  | .hbm, ⟨24, _⟩ => ⟨S16384x512, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S2048x128, .bf16⟩
  | .local _ .vmem, ⟨5, _⟩ => ⟨S4096x512, .bf16⟩
  | .local _ .vmem, ⟨6, _⟩ => ⟨S1024x512, .f32⟩
  | .local _ .vmem, ⟨7, _⟩ => ⟨S1024x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S512x64x64_S512x4096 : S512x64x64.ShapeCasts S512x4096
  transposes_S512x4096_S4096x512_1_0 : S512x4096.Transposes [1, 0] S4096x512
  bitsLt_bf16_f32 : FTy.bits .bf16 < FTy.bits .f32
  bcast_S_S2048x128 : S_.BroadcastsInDim S2048x128 (![] : Fin 0 → Fin S2048x128.rank)
  bcast_S_S1 : S_.BroadcastsInDim S1 (![] : Fin 0 → Fin S1.rank)
  concatenates_S1_S1_S2_d0 : Shape.Concatenates [S1, S1] S2 0
  inb_S1024x1024_S1024x1024_0_0 : ∀ a, (![0, 0] : Fin 2 → Nat) a + S1024x1024.size a ≤ S1024x1024.size a
  h_S1024x1024 : 0 < S1024x1024.numel
  concatenates_S1024x1024_S1024x1024_S1024x2048_d1 : Shape.Concatenates [S1024x1024, S1024x1024] S1024x2048 1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  slices_S1024x128_o0_0_S1024x64 : S1024x128.Slices ![0, 0] S1024x64
  slices_S1024x128_o0_64_S1024x64 : S1024x128.Slices ![0, 64] S1024x64
  shapeCasts_S1024x64_S1024x64x1 : S1024x64.ShapeCasts S1024x64x1
  shapeCasts_S1024x64_S1024x1x64 : S1024x64.ShapeCasts S1024x1x64
  broadcasts_S1024x64x1_S1024x64x64 : S1024x64x1.Broadcasts S1024x64x64
  broadcasts_S1024x1x64_S1024x64x64 : S1024x1x64.Broadcasts S1024x64x64
  shapeCasts_S1024x64x64_S1024x4096 : S1024x64x64.ShapeCasts S1024x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1024x512_S1024x512_0_0 : ∀ a, (![0, 0] : Fin 2 → Nat) a + S1024x512.size a ≤ S1024x512.size a
  h_S1024x512 : 0 < S1024x512.numel
  scatter_S2048x128_S2_S1024x64_01_n_01_0_wf : ScatterDims.WF S2048x128 S2 S1024x64 [0, 1] [] [0, 1] 0
  dot_S1024x2048_S2048x128_S1024x128_1_0_0_1_n_n_wf : DotDims.WF S1024x2048 S2048x128 S1024x128 [1] [0] [0] [1] [] []
  dot_S1024x4096_S4096x512_S1024x512_1_0_0_1_n_n_wf : DotDims.WF S1024x4096 S4096x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x1024.size a
  hwx0_1 : ∀ i : grid0.Coords, EltTy.bits .f32 = 32 ∨ (Rect.block (s := S16384x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S2048x128.size a
  hwx0_2 : ∀ i : grid0.Coords, EltTy.bits .bf16 = 32 ∨ (Rect.block (s := S2048x128) S2048x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x512.size a ≤ S4096x512.size a
  hwx0_3 : ∀ i : grid0.Coords, EltTy.bits .bf16 = 32 ∨ (Rect.block (s := S4096x512) S4096x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S16384x512.size a
  hwx0_4 : ∀ i : grid0.Coords, EltTy.bits .f32 = 32 ∨ (Rect.block (s := S16384x512) S1024x512.size (cc0_transform_4 i) (hinb0_4 i)).WholeWords (EltTy.packing .f32)

variable [Facts₀]

def scatter_S2048x128_S2_S1024x64_01_n_01_0 : ScatterDims S2048x128 S2 S1024x64 where
  updateWindowDims := [0, 1]
  insertedWindowDims := []
  scatterDimsToOperandDims := [0, 1]
  indexVectorDim := 0
  wf := scatter_S2048x128_S2_S1024x64_01_n_01_0_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x4096_S4096x512_S1024x512_1_0_0_1_n_n : DotDims S1024x4096 S4096x512 S1024x512 where
  lhsContracting := [1]
  rhsContracting := [0]
  lhsNonContracting := [0]
  rhsNonContracting := [1]
  lhsBatch := []
  rhsBatch := []
  wf := dot_S1024x4096_S4096x512_S1024x512_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2048x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4096x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x64 : Shape := ⟨2, ![1024, 64]⟩
abbrev S512x64x64 : Shape := ⟨3, ![512, 64, 64]⟩
abbrev S16384x64 : Shape := ⟨2, ![16384, 64]⟩
abbrev S16384x64x1 : Shape := ⟨3, ![16384, 64, 1]⟩
abbrev S16384x1x64 : Shape := ⟨3, ![16384, 1, 64]⟩
abbrev S16384x64x64 : Shape := ⟨3, ![16384, 64, 64]⟩
abbrev S16384x4096 : Shape := ⟨2, ![16384, 4096]⟩
abbrev S512x4096 : Shape := ⟨2, ![512, 4096]⟩
abbrev S4096x512 : Shape := ⟨2, ![4096, 512]⟩
abbrev S16384x512 : Shape := ⟨2, ![16384, 512]⟩

abbrev nBuf : Space → Nat
  | .hbm => 16
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x64, .f32⟩
  | .hbm, ⟨3, _⟩ => ⟨S1024x64, .f32⟩
  | .hbm, ⟨4, _⟩ => ⟨S512x64x64, .f32⟩
  | .hbm, ⟨5, _⟩ => ⟨S16384x64, .f32⟩
  | .hbm, ⟨6, _⟩ => ⟨S16384x64, .f32⟩
  | .hbm, ⟨7, _⟩ => ⟨S16384x64x1, .f32⟩
  | .hbm, ⟨8, _⟩ => ⟨S16384x1x64, .f32⟩
  | .hbm, ⟨9, _⟩ => ⟨S16384x64x64, .f32⟩
  | .hbm, ⟨10, _⟩ => ⟨S16384x64x64, .f32⟩
  | .hbm, ⟨11, _⟩ => ⟨S16384x64x64, .f32⟩
  | .hbm, ⟨12, _⟩ => ⟨S16384x4096, .f32⟩
  | .hbm, ⟨13, _⟩ => ⟨S512x4096, .f32⟩
  | .hbm, ⟨14, _⟩ => ⟨S4096x512, .f32⟩
  | .hbm, ⟨15, _⟩ => ⟨S16384x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S16384x64_S16384x64x1_0_1 : S16384x64.BroadcastsInDim S16384x64x1 (![0, 1] : Fin 2 → Fin S16384x64x1.rank)
  bcast_S16384x64_S16384x1x64_0_2 : S16384x64.BroadcastsInDim S16384x1x64 (![0, 2] : Fin 2 → Fin S16384x1x64.rank)
  bcast_S16384x64x1_S16384x64x64_0_1_2 : S16384x64x1.BroadcastsInDim S16384x64x64 (![0, 1, 2] : Fin 3 → Fin S16384x64x64.rank)
  bcast_S16384x1x64_S16384x64x64_0_1_2 : S16384x1x64.BroadcastsInDim S16384x64x64 (![0, 1, 2] : Fin 3 → Fin S16384x64x64.rank)
  shapeCasts_S16384x64x64_S16384x4096 : S16384x64x64.ShapeCasts S16384x4096
  shapeCasts_S512x64x64_S512x4096 : S512x64x64.ShapeCasts S512x4096
  transposes_S512x4096_S4096x512_1_0 : S512x4096.Transposes [1, 0] S4096x512
  dot_S16384x1024_S1024x64_S16384x64_1_0_0_1_n_n_wf : DotDims.WF S16384x1024 S1024x64 S16384x64 [1] [0] [0] [1] [] []
  dot_S16384x4096_S4096x512_S16384x512_1_0_0_1_n_n_wf : DotDims.WF S16384x4096 S4096x512 S16384x512 [1] [0] [0] [1] [] []

variable [Facts₀]

def dot_S16384x1024_S1024x64_S16384x64_1_0_0_1_n_n : DotDims S16384x1024 S1024x64 S16384x64 where
  lhsContracting := [1]
  rhsContracting := [0]
  lhsNonContracting := [0]
  rhsNonContracting := [1]
  lhsBatch := []
  rhsBatch := []
  wf := dot_S16384x1024_S1024x64_S16384x64_1_0_0_1_n_n_wf
def dot_S16384x4096_S4096x512_S16384x512_1_0_0_1_n_n : DotDims S16384x4096 S4096x512 S16384x512 where
  lhsContracting := [1]
  rhsContracting := [0]
  lhsNonContracting := [0]
  rhsNonContracting := [1]
  lhsBatch := []
  rhsBatch := []
  wf := dot_S16384x4096_S4096x512_S16384x512_1_0_0_1_n_n_wf

class Facts : Prop extends Facts₀ where

variable [Facts]
-- ==== Proof.LibScatter.lean ====
/-
  `stablehlo.scatter` whose body returns the update (`x.at[…].set(v)`), read at ONE operand index.

  The scatter is a left fold over the update positions in row-major order; each step overwrites the operand
  element its update lands on and leaves every other element alone. So at an operand index `i'`:
  * if no update lands on `i'`, the result there is the operand's element (`Host.scatter_apply_of_miss`,
    for any body);
  * if exactly one update index `j` lands on `i'` and the body returns the update, the result there is
    `upd j` (`Host.scatter_apply_of_hit`).
  Both are proved for the fold over an arbitrary list of positions first, by induction on the list.
-/
import Idealize.ShloMosaic.PureOps.ShapeOps

namespace Idealize.ShloMosaic

variable {s si u : Shape} {α : Type} {w : Nat}

/-- The fold over any list of update positions leaves operand index `i'` alone when no listed update lands on it. -/
theorem Host.scatter_fold_miss (d : ScatterDims s si u) (f : α → α → α) (idx : IVec si w) (upd : u.Idx → α) (i' : s.Idx) :
    ∀ (l : List (Fin u.numel)) (x : s.Idx → α),
      (∀ n ∈ l, d.resultIdx? (u.rowMajor.symm n) idx ≠ some i') →
      (l.foldl (fun r n =>
        match d.resultIdx? (u.rowMajor.symm n) idx with
        | some i => fun i' => if i' = i then f (r i) (upd (u.rowMajor.symm n)) else r i'
        | none => r) x) i' = x i' := by
  intro l
  induction l with
  | nil => intro x _; rfl
  | cons a l ih =>
    intro x h
    rw [List.foldl_cons, ih _ (fun n hn => h n (List.mem_cons_of_mem _ hn))]
    have ha := h a (List.mem_cons_self ..)
    generalize d.resultIdx? (u.rowMajor.symm a) idx = o at ha
    cases o with
    | none => rfl
    | some i => exact if_neg (fun e => ha (by rw [e]))

/-- The fold over a list of update positions that holds `n₀`, the only listed position landing on `i'`, ends at
    `n₀`'s update there, when the body returns the update. -/
theorem Host.scatter_fold_hit (d : ScatterDims s si u) (f : α → α → α) (hf : ∀ a b, f a b = b) (idx : IVec si w)
    (upd : u.Idx → α) (i' : s.Idx) (n₀ : Fin u.numel) (hn₀ : d.resultIdx? (u.rowMajor.symm n₀) idx = some i') :
    ∀ (l : List (Fin u.numel)) (x : s.Idx → α), n₀ ∈ l →
      (∀ n ∈ l, d.resultIdx? (u.rowMajor.symm n) idx = some i' → n = n₀) →
      (l.foldl (fun r n =>
        match d.resultIdx? (u.rowMajor.symm n) idx with
        | some i => fun i' => if i' = i then f (r i) (upd (u.rowMajor.symm n)) else r i'
        | none => r) x) i' = upd (u.rowMajor.symm n₀) := by
  intro l
  induction l with
  | nil => intro x hm; exact absurd hm (List.not_mem_nil)
  | cons a l ih =>
    intro x hm huniq
    rw [List.foldl_cons]
    by_cases hl : n₀ ∈ l
    · exact ih _ hl (fun n hn => huniq n (List.mem_cons_of_mem _ hn))
    · have ha : a = n₀ := ((List.mem_cons.1 hm).resolve_right hl).symm
      subst ha
      rw [Host.scatter_fold_miss d f idx upd i' l _
        (fun n hn hres => hl ((huniq n (List.mem_cons_of_mem _ hn) hres) ▸ hn))]
      rw [hn₀]
      show (if i' = i' then f (x i') (upd (u.rowMajor.symm a)) else x i') = _
      rw [if_pos rfl, hf]

/-- A scatter read at an operand index no update lands on: the operand's element. -/
theorem Host.scatter_apply_of_miss (d : ScatterDims s si u) (f : α → α → α) (x : s.Idx → α) (idx : IVec si w)
    (upd : u.Idx → α) (i' : s.Idx) (h : ∀ j : u.Idx, d.resultIdx? j idx ≠ some i') :
    Host.scatter d f x idx upd i' = x i' := by
  unfold Host.scatter
  exact Host.scatter_fold_miss d f idx upd i' _ x (fun n _ => h _)

/-- A scatter whose body returns the update, read at an operand index exactly one update index `j` lands on:
    that update. -/
theorem Host.scatter_apply_of_hit (d : ScatterDims s si u) (f : α → α → α) (hf : ∀ a b, f a b = b) (x : s.Idx → α)
    (idx : IVec si w) (upd : u.Idx → α) (i' : s.Idx) (j : u.Idx) (hj : d.resultIdx? j idx = some i')
    (huniq : ∀ j', d.resultIdx? j' idx = some i' → j' = j) :
    Host.scatter d f x idx upd i' = upd j := by
  unfold Host.scatter
  have h := Host.scatter_fold_hit d f hf idx upd i' (u.rowMajor j)
    (by rw [Equiv.symm_apply_apply]; exact hj) (List.finRange _) x (List.mem_finRange _)
    (fun n _ hn => by rw [← huniq _ hn, Equiv.apply_symm_apply])
  rw [Equiv.symm_apply_apply] at h
  exact h

end Idealize.ShloMosaic
-- ==== Proof.Spec.lean ====
/-
  The function both programs compute, over literal shapes, and the one algebraic fact that joins them.

  Rows `x1[b, :]`, `x2[b, :]` are projected onto the columns of `U1`, `U2`; the 64 × 64 products of the two
  projections, flattened row-major (`k = 64·i + j`), are contracted against the core `B[o, i, j]`:

      G[b, o] = ∑ k < 4096, (∑ d, x1[b, d]·U1[d, k / 64]) · (∑ d, x2[b, d]·U2[d, k % 64]) · B[o, k / 64, k % 64].

  One grid step of the kernel works on a 1024-row block: it lays the two row blocks side by side (`catRow`),
  multiplies by ONE 2048 × 128 matrix `W` and reads the two projections off the left and right 64 columns
  (`blockOut`). When `W` is block diagonal — `U1` top left, `U2` bottom right, zero elsewhere — the sum over the 2048
  side-by-side columns splits into the two halves, one of which meets only zeros (`sum_cat_left`, `sum_cat_right`):
  no finiteness is needed, since `x · 0 = 0` for every extended real.
-/
import Idealize.ShloMosaic.PureOps.Ideal
import Idealize.ShloMosaic.Lib.ValueIdx
import Mathlib.Algebra.BigOperators.Fin

noncomputable section

open scoped BigOperators

namespace Cert.Tucker

open Idealize.ShloMosaic Idealize.ShloMosaic.ValueIdx

/-- The row digit of a position in a flattened 64 × 64 pair. -/
def hi (k : Fin 4096) : Fin 64 := ⟨k.val / 64, by have := k.isLt; omega⟩
/-- The column digit of a position in a flattened 64 × 64 pair. -/
def lo (k : Fin 4096) : Fin 64 := ⟨k.val % 64, Nat.mod_lt _ (by decide)⟩
/-- Column `i` of the left half of a 128-column matrix. -/
def colL (i : Fin 64) : Fin 128 := ⟨i.val, by have := i.isLt; omega⟩
/-- Column `i` of the right half of a 128-column matrix. -/
def colR (i : Fin 64) : Fin 128 := ⟨64 + i.val, by have := i.isLt; omega⟩

/-- Row `b` of `x` against column `i` of `U`. -/
def proj (x : (⟨2, ![16384, 1024]⟩ : Shape).Idx → EReal) (U : (⟨2, ![1024, 64]⟩ : Shape).Idx → EReal)
    (b : Fin 16384) (i : Fin 64) : EReal :=
  ∑ d : Fin 1024, x (ix2 b d) * U (ix2 d i)

/-- The result array as one function of the five argument arrays. -/
def G (x1 x2 : (⟨2, ![16384, 1024]⟩ : Shape).Idx → EReal) (U1 U2 : (⟨2, ![1024, 64]⟩ : Shape).Idx → EReal)
    (B : (⟨3, ![512, 64, 64]⟩ : Shape).Idx → EReal) : (⟨2, ![16384, 512]⟩ : Shape).Idx → EReal :=
  fun j => ∑ k : Fin 4096, (proj x1 U1 (j 0) (hi k) * proj x2 U2 (j 0) (lo k)) * B (ix3 (j 1) (hi k) (lo k))

/-- Row `p` of two 1024-column blocks laid side by side, at column `d` of 2048. -/
def catRow (a b : (⟨2, ![1024, 1024]⟩ : Shape).Idx → EReal) (p : Fin 1024) (d : Fin 2048) : EReal :=
  if h : d.val < 1024 then a (ix2 p ⟨d.val, h⟩) else b (ix2 p ⟨d.val - 1024, by have := d.isLt; omega⟩)

/-- What one grid step stores: both projections through ONE matrix `W`, then the contraction against `Bt[k, o]`. -/
def blockOut (a b : (⟨2, ![1024, 1024]⟩ : Shape).Idx → EReal) (W : (⟨2, ![2048, 128]⟩ : Shape).Idx → EReal)
    (Bt : (⟨2, ![4096, 512]⟩ : Shape).Idx → EReal) : (⟨2, ![1024, 512]⟩ : Shape).Idx → EReal :=
  fun j => ∑ k : Fin 4096,
    ((∑ d : Fin 2048, catRow a b (j 0) d * W (ix2 d (colL (hi k))))
      * (∑ d : Fin 2048, catRow a b (j 0) d * W (ix2 d (colR (lo k))))) * Bt (ix2 k (j 1))

/-- A sum over the 2048 side-by-side columns is the sum over the left 1024 plus the sum over the right 1024. -/
theorem sum_halves (f : Fin 2048 → EReal) :
    ∑ d : Fin 2048, f d = (∑ d : Fin 1024, f ⟨d.val, by have := d.isLt; omega⟩)
      + ∑ d : Fin 1024, f ⟨1024 + d.val, by have := d.isLt; omega⟩ :=
  Fin.sum_univ_add (a := 1024) (b := 1024) f

/-- Against a column of `W` that is a column of `U` on the top 1024 rows and zero below, the side-by-side row sums to
    the LEFT block's row against that column of `U`. -/
theorem sum_cat_left (a b : (⟨2, ![1024, 1024]⟩ : Shape).Idx → EReal) (W : (⟨2, ![2048, 128]⟩ : Shape).Idx → EReal)
    (U : (⟨2, ![1024, 64]⟩ : Shape).Idx → EReal) (p : Fin 1024) (n : Fin 128) (i : Fin 64)
    (h1 : ∀ (d : Fin 2048) (h : d.val < 1024), W (ix2 d n) = U (ix2 (⟨d.val, h⟩ : Fin 1024) i))
    (h2 : ∀ d : Fin 2048, 1024 ≤ d.val → W (ix2 d n) = 0) :
    ∑ d : Fin 2048, catRow a b p d * W (ix2 d n) = ∑ d : Fin 1024, a (ix2 p d) * U (ix2 d i) := by
  rw [sum_halves]
  have hz : (∑ d : Fin 1024, catRow a b p ⟨1024 + d.val, by have := d.isLt; omega⟩
      * W (ix2 (⟨1024 + d.val, by have := d.isLt; omega⟩ : Fin 2048) n)) = 0 :=
    Finset.sum_eq_zero fun d _ => by rw [h2 _ (Nat.le_add_right _ _), mul_zero]
  rw [hz, add_zero]
  refine Finset.sum_congr rfl fun d _ => ?_
  rw [h1 _ d.isLt]
  unfold catRow
  rw [dif_pos (show (⟨d.val, _⟩ : Fin 2048).val < 1024 from d.isLt)]

/-- Against a column of `W` that is zero on the top 1024 rows and a column of `U` below, the side-by-side row sums to
    the RIGHT block's row against that column of `U`. -/
theorem sum_cat_right (a b : (⟨2, ![1024, 1024]⟩ : Shape).Idx → EReal) (W : (⟨2, ![2048, 128]⟩ : Shape).Idx → EReal)
    (U : (⟨2, ![1024, 64]⟩ : Shape).Idx → EReal) (p : Fin 1024) (n : Fin 128) (i : Fin 64)
    (h1 : ∀ d : Fin 2048, d.val < 1024 → W (ix2 d n) = 0)
    (h2 : ∀ (d : Fin 2048) (h : 1024 ≤ d.val), W (ix2 d n) = U (ix2 (⟨d.val - 1024, by have := d.isLt; omega⟩ : Fin 1024) i)) :
    ∑ d : Fin 2048, catRow a b p d * W (ix2 d n) = ∑ d : Fin 1024, b (ix2 p d) * U (ix2 d i) := by
  rw [sum_halves]
  have hz : (∑ d : Fin 1024, catRow a b p ⟨d.val, by have := d.isLt; omega⟩
      * W (ix2 (⟨d.val, by have := d.isLt; omega⟩ : Fin 2048) n)) = 0 :=
    Finset.sum_eq_zero fun d _ => by rw [h1 _ d.isLt, mul_zero]
  rw [hz, zero_add]
  refine Finset.sum_congr rfl fun d _ => ?_
  rw [h2 _ (Nat.le_add_right _ _)]
  unfold catRow
  rw [dif_neg (show ¬ (⟨1024 + d.val, _⟩ : Fin 2048).val < 1024 from Nat.not_lt.2 (Nat.le_add_right _ _))]
  have e : (⟨(⟨1024 + d.val, by have := d.isLt; omega⟩ : Fin 2048).val - 1024, by have := d.isLt; show 1024 + d.val - 1024 < 1024; omega⟩ : Fin 1024) = d :=
    Fin.ext (by show 1024 + d.val - 1024 = d.val; omega)
  rw [e]

/-- ONE GRID STEP IS A BLOCK OF `G`: with the two row blocks read off rows `r₀ + p` of `x1`, `x2`, `W` block diagonal
    over `U1`, `U2`, and `Bt[k, o] = B[o, k / 64, k % 64]`, the step's value at `(p, o)` is `G` at `(r₀ + p, o)`. -/
theorem blockOut_eq (x1 x2 : (⟨2, ![16384, 1024]⟩ : Shape).Idx → EReal) (U1 U2 : (⟨2, ![1024, 64]⟩ : Shape).Idx → EReal)
    (B : (⟨3, ![512, 64, 64]⟩ : Shape).Idx → EReal)
    (a b : (⟨2, ![1024, 1024]⟩ : Shape).Idx → EReal) (W : (⟨2, ![2048, 128]⟩ : Shape).Idx → EReal)
    (Bt : (⟨2, ![4096, 512]⟩ : Shape).Idx → EReal) (p : Fin 1024) (o : Fin 512) (r : Fin 16384)
    (ha : ∀ d : Fin 1024, a (ix2 p d) = x1 (ix2 r d)) (hb : ∀ d : Fin 1024, b (ix2 p d) = x2 (ix2 r d))
    (hUL : ∀ (d : Fin 2048) (i : Fin 64) (h : d.val < 1024), W (ix2 d (colL i)) = U1 (ix2 (⟨d.val, h⟩ : Fin 1024) i))
    (hLL : ∀ (d : Fin 2048) (i : Fin 64), 1024 ≤ d.val → W (ix2 d (colL i)) = 0)
    (hUR : ∀ (d : Fin 2048) (i : Fin 64), d.val < 1024 → W (ix2 d (colR i)) = 0)
    (hLR : ∀ (d : Fin 2048) (i : Fin 64) (h : 1024 ≤ d.val),
      W (ix2 d (colR i)) = U2 (ix2 (⟨d.val - 1024, by have := d.isLt; omega⟩ : Fin 1024) i))
    (hB : ∀ k : Fin 4096, Bt (ix2 k o) = B (ix3 o (hi k) (lo k))) :
    blockOut a b W Bt (ix2 p o) = G x1 x2 U1 U2 B (ix2 r o) := by
  unfold blockOut G proj
  refine Finset.sum_congr rfl fun k _ => ?_
  show ((∑ d : Fin 2048, catRow a b p d * W (ix2 d (colL (hi k))))
      * (∑ d : Fin 2048, catRow a b p d * W (ix2 d (colR (lo k))))) * Bt (ix2 k o) = _
  rw [sum_cat_left a b W U1 p (colL (hi k)) (hi k) (fun d h => hUL d (hi k) h) (fun d h => hLL d (hi k) h),
    sum_cat_right a b W U2 p (colR (lo k)) (lo k) (fun d h => hUR d (lo k) h) (fun d h => hLR d (lo k) h), hB k]
  simp only [ha, hb]

end Cert.Tucker

end
-- ==== Proof.HostPrefix.lean ====
/-
  What the two arrays the host builds before the launch hold, index by index (at the ideal values).

  * The 2048 × 128 matrix the kernel multiplies the side-by-side rows by is a zero matrix into which `U1` is written
    at start `(0, 0)` and then `U2` at start `(1024, 64)`. An update index `(a, b)` of a 1024 × 64 update written at
    start `(R, C)` lands on `(R + a, C + b)`, always inside the operand, and distinct update indices land on distinct
    elements; so the written matrix at `(r, c)` is the update at `(r − R, c − C)` inside the window and the operand
    outside (`scatter_at`). Hence the matrix is block diagonal: `U1` top left, `U2` bottom right, zero elsewhere
    (`W_topLeft`, `W_bottomLeft`, `W_topRight`, `W_bottomRight`).
  * The 4096 × 512 matrix of the last product is the core flattened to 512 × 4096 and transposed: at `(k, o)` it is
    `B[o, k / 64, k % 64]` (`Bt_apply`).
  Format changes are the identity at the ideal values.
-/
import proofs.«149522_j71648644432003_2_alg».proof.Proof.Gen.KernelIdeal.Frame
import proofs.«149522_j71648644432003_2_alg».proof.Proof.LibScatter
import proofs.«149522_j71648644432003_2_alg».proof.Proof.Spec
import Idealize.ShloMosaic.Lib.ValueIdx
import Idealize.ShloMosaic.Lib.Pipeline.Value
import Idealize.ShloMosaic.Lib.StableHlo.Run

noncomputable section

namespace Cert.KernelIdeal.HostPrefix

open Cert.KernelIdeal Cert.KernelIdeal.Gen Idealize.ShloMosaic Idealize.ShloMosaic.TcCoe Idealize.ShloMosaic.ValueIdx
open Idealize.SL.Sem Idealize.ShloMosaic.StableHlo Cert.Tucker

/-- The dimension numbers of both writes: a whole 1024 × 64 window at one two-component start index. -/
abbrev SD : ScatterDims S2048x128 S2 S1024x64 := scatter_S2048x128_S2_S1024x64_01_n_01_0

/-! ## Where an update index lands -/

/-- The start on operand axis 0 is the start index's component 0, whatever the update index. -/
theorem start0 (j : S1024x64.Idx) (idx : IVec S2 32) : SD.start j idx 0 = (idx (ix1 (0 : Fin 2))).toInt := by
  unfold ScatterDims.start
  rw [dif_pos (by decide)]
  congr 2
  funext b
  match b with
  | ⟨0, _⟩ => rfl

/-- The start on operand axis 1 is the start index's component 1. -/
theorem start1 (j : S1024x64.Idx) (idx : IVec S2 32) : SD.start j idx 1 = (idx (ix1 (1 : Fin 2))).toInt := by
  unfold ScatterDims.start
  rw [dif_pos (by decide)]
  congr 2
  funext b
  match b with
  | ⟨0, _⟩ => rfl

/-- The window coordinate on operand axis 0 is the update index's coordinate 0. -/
theorem window0 (j : S1024x64.Idx) : SD.window j 0 = (j 0).val := by
  unfold ScatterDims.window
  rw [dif_pos (by decide)]
  rfl

/-- The window coordinate on operand axis 1 is the update index's coordinate 1. -/
theorem window1 (j : S1024x64.Idx) : SD.window j 1 = (j 1).val := by
  unfold ScatterDims.window
  rw [dif_pos (by decide)]
  rfl

/-- With the start index `(R, C)` and the window inside the operand, update index `(a, b)` lands on `(R + a, C + b)`. -/
theorem resultIdx_eq (R C : Nat) (hR : R + 1024 ≤ 2048) (hC : C + 64 ≤ 128) (idx : IVec S2 32)
    (h0 : (idx (ix1 (0 : Fin 2))).toInt = R) (h1 : (idx (ix1 (1 : Fin 2))).toInt = C) (j : S1024x64.Idx) :
    SD.resultIdx? j idx = some (ix2 (⟨R + (j 0).val, by have h : (j 0).val < 1024 := (j 0).isLt; show R + (j 0).val < 2048; omega⟩ : Fin 2048)
      (⟨C + (j 1).val, by have h : (j 1).val < 64 := (j 1).isLt; show C + (j 1).val < 128; omega⟩ : Fin 128)) := by
  have hj0 : (j 0).val < 1024 := (j 0).isLt
  have hj1 : (j 1).val < 64 := (j 1).isLt
  unfold ScatterDims.resultIdx?
  have h : ∀ a, 0 ≤ SD.start j idx a + SD.window j a ∧ SD.start j idx a + SD.window j a < S2048x128.size a := by
    intro a
    match a with
    | ⟨0, _⟩ =>
      show 0 ≤ SD.start j idx 0 + SD.window j 0 ∧ SD.start j idx 0 + SD.window j 0 < ((2048 : Nat) : Int)
      rw [start0, window0, h0]; omega
    | ⟨1, _⟩ =>
      show 0 ≤ SD.start j idx 1 + SD.window j 1 ∧ SD.start j idx 1 + SD.window j 1 < ((128 : Nat) : Int)
      rw [start1, window1, h1]; omega
  rw [dif_pos h]
  congr 1
  funext a
  match a with
  | ⟨0, _⟩ =>
    refine Fin.ext ?_
    show (SD.start j idx 0 + SD.window j 0).toNat = R + (j 0).val
    rw [start0, window0, h0]; omega
  | ⟨1, _⟩ =>
    refine Fin.ext ?_
    show (SD.start j idx 1 + SD.window j 1).toNat = C + (j 1).val
    rw [start1, window1, h1]; omega

/-- A 1024 × 64 update written at start `(R, C)`, read at `(r, c)`: the update at `(r − R, c − C)` inside the window,
    the operand outside it. -/
theorem scatter_at {α : Type} (R C : Nat) (hR : R + 1024 ≤ 2048) (hC : C + 64 ≤ 128) (x : S2048x128.Idx → α)
    (idx : IVec S2 32) (h0 : (idx (ix1 (0 : Fin 2))).toInt = R) (h1 : (idx (ix1 (1 : Fin 2))).toInt = C)
    (upd : S1024x64.Idx → α) (r : Fin 2048) (c : Fin 128) :
    Host.scatter SD (fun _ b => b) x idx upd (ix2 r c)
      = if h : (R ≤ r.val ∧ r.val < R + 1024) ∧ (C ≤ c.val ∧ c.val < C + 64)
        then upd (ix2 (⟨r.val - R, by omega⟩ : Fin 1024) (⟨c.val - C, by omega⟩ : Fin 64)) else x (ix2 r c) := by
  by_cases h : (R ≤ r.val ∧ r.val < R + 1024) ∧ (C ≤ c.val ∧ c.val < C + 64)
  · rw [dif_pos h]
    refine Host.scatter_apply_of_hit SD _ (fun _ _ => rfl) x idx upd _ _ ?_ ?_
    · rw [resultIdx_eq R C hR hC idx h0 h1]
      congr 1
      funext a
      match a with
      | ⟨0, _⟩ => exact Fin.ext (by show R + (r.val - R) = r.val; omega)
      | ⟨1, _⟩ => exact Fin.ext (by show C + (c.val - C) = c.val; omega)
    · intro j' hj'
      rw [resultIdx_eq R C hR hC idx h0 h1] at hj'
      have e := Option.some.inj hj'
      have e0 : R + (j' 0).val = r.val := congrArg (fun i : S2048x128.Idx => (i 0).val) e
      have e1 : C + (j' 1).val = c.val := congrArg (fun i : S2048x128.Idx => (i 1).val) e
      funext a
      match a with
      | ⟨0, _⟩ => exact Fin.ext (by show (j' 0).val = r.val - R; omega)
      | ⟨1, _⟩ => exact Fin.ext (by show (j' 1).val = c.val - C; omega)
  · rw [dif_neg h]
    refine Host.scatter_apply_of_miss SD _ x idx upd _ (fun j hj => h ?_)
    rw [resultIdx_eq R C hR hC idx h0 h1] at hj
    have e := Option.some.inj hj
    have e0 : R + (j 0).val = r.val := congrArg (fun i : S2048x128.Idx => (i 0).val) e
    have e1 : C + (j 1).val = c.val := congrArg (fun i : S2048x128.Idx => (i 1).val) e
    have hj0 : (j 0).val < 1024 := (j 0).isLt
    have hj1 : (j 1).val < 64 := (j 1).isLt
    omega

/-! ## The two arrays as the launch finds them -/

variable (m : (ℓ : Loc nD τ sig) → Buf (Elt Idealize.ShloMosaic.Ideal) ℓ)

/-- The start index `(0, 0)` of the first write. -/
abbrev start00 : IVec S2 32 :=
  concatenate S2 0 [⟨S1, broadcastInDim S1 ![] bcast_S_S1 (constantI S_ 32 0#32)⟩,
    ⟨S1, broadcastInDim S1 ![] bcast_S_S1 (constantI S_ 32 0#32)⟩] concatenates_S1_S1_S2_d0
/-- The start index `(1024, 64)` of the second write. -/
abbrev start1024_64 : IVec S2 32 :=
  concatenate S2 0 [⟨S1, broadcastInDim S1 ![] bcast_S_S1 (constantI S_ 32 1024#32)⟩,
    ⟨S1, broadcastInDim S1 ![] bcast_S_S1 (constantI S_ 32 64#32)⟩] concatenates_S1_S1_S2_d0

/-- The zero matrix the writes start from. -/
abbrev zeros : S2048x128.Idx → EReal :=
  broadcastInDim S2048x128 ![] bcast_S_S2048x128 (constant (F := Idealize.ShloMosaic.Ideal) S_ .bf16 0x0000#16)

theorem ofBits_zero_bf16 : Idealize.ShloMosaic.Ideal.ofBits .bf16 0x0000#16 = 0 := by
  simp [Idealize.ShloMosaic.Ideal.ofBits, Idealize.ShloMosaic.Ideal.ieee]

theorem zeros_apply (i : S2048x128.Idx) : zeros i = 0 := ofBits_zero_bf16

/-- The second factor `U1` as launched. -/
abbrev argU1 (c : Dev nD) : S1024x64.Idx → EReal := m ((c : Thread nD τ).loc main_arg2)
/-- The second factor `U2` as launched. -/
abbrev argU2 (c : Dev nD) : S1024x64.Idx → EReal := m ((c : Thread nD τ).loc main_arg3)
/-- The core `B` as launched. -/
abbrev argB (c : Dev nD) : S512x64x64.Idx → EReal := m ((c : Thread nD τ).loc main_arg4)
/-- The matrix of the first product as the launch finds it. -/
abbrev Wv (c : Dev nD) : S2048x128.Idx → EReal := V m c main_v13
/-- The matrix of the last product as the launch finds it. -/
abbrev Btv (c : Dev nD) : S4096x512.Idx → EReal := V m c main_v2

/-- The matrix of the first product, as the launch finds it: the two writes into the zero matrix. -/
theorem V_W (c : Dev nD) : Wv m c
    = Host.scatter SD (fun _ b => b)
        (Host.scatter SD (fun _ b => b) zeros start00 (truncf (F := Idealize.ShloMosaic.Ideal) .bf16 (argU1 m c) bitsLt_bf16_f32 : S1024x64.Idx → EReal))
        start1024_64 (truncf (F := Idealize.ShloMosaic.Ideal) .bf16 (argU2 m c) bitsLt_bf16_f32 : S1024x64.Idx → EReal) := by
  dsimp only [Wv, V, hostOps0]; after_results <;> rfl

/-- The matrix of the last product, as the launch finds it: the core flattened and transposed. -/
theorem V_Bt (c : Dev nD) : Btv m c
    = (truncf (F := Idealize.ShloMosaic.Ideal) .bf16 (transpose S4096x512 [1, 0] (shapeCast S512x4096 (argB m c)
        shapeCasts_S512x64x64_S512x4096) transposes_S512x4096_S4096x512_1_0) bitsLt_bf16_f32 : S4096x512.Idx → EReal) := by
  dsimp only [Btv, V, hostOps0]; after_results <;> rfl

/-- The first product's matrix at `(r, c)`, by cases on the two windows. -/
theorem W_apply (c : Dev nD) (r : Fin 2048) (n : Fin 128) :
    Wv m c (ix2 r n)
      = if h : (1024 ≤ r.val ∧ r.val < 1024 + 1024) ∧ (64 ≤ n.val ∧ n.val < 64 + 64)
        then argU2 m c (ix2 (⟨r.val - 1024, by omega⟩ : Fin 1024) (⟨n.val - 64, by omega⟩ : Fin 64))
        else if h : (0 ≤ r.val ∧ r.val < 0 + 1024) ∧ (0 ≤ n.val ∧ n.val < 0 + 64)
          then argU1 m c (ix2 (⟨r.val - 0, by omega⟩ : Fin 1024) (⟨n.val - 0, by omega⟩ : Fin 64))
          else (0 : EReal) := by
  rw [V_W, scatter_at 1024 64 (by decide) (by decide) _ start1024_64 (by decide) (by decide),
    scatter_at 0 0 (by decide) (by decide) _ start00 (by decide) (by decide), zeros_apply]
  rfl

/-- Top left: `U1`. -/
theorem W_topLeft (c : Dev nD) (d : Fin 2048) (i : Fin 64) (h : d.val < 1024) :
    Wv m c (ix2 d (colL i)) = argU1 m c (ix2 (⟨d.val, h⟩ : Fin 1024) i) := by
  have hi : i.val < 64 := i.isLt
  rw [W_apply, dif_neg (by show ¬ ((1024 ≤ d.val ∧ d.val < 1024 + 1024) ∧ (64 ≤ i.val ∧ i.val < 64 + 64)); omega),
    dif_pos (by show (0 ≤ d.val ∧ d.val < 0 + 1024) ∧ (0 ≤ i.val ∧ i.val < 0 + 64); omega)]
  rfl

/-- Bottom left: zero. -/
theorem W_bottomLeft (c : Dev nD) (d : Fin 2048) (i : Fin 64) (h : 1024 ≤ d.val) :
    Wv m c (ix2 d (colL i)) = (0 : EReal) := by
  have hi : i.val < 64 := i.isLt
  rw [W_apply, dif_neg (by show ¬ ((1024 ≤ d.val ∧ d.val < 1024 + 1024) ∧ (64 ≤ i.val ∧ i.val < 64 + 64)); omega),
    dif_neg (by show ¬ ((0 ≤ d.val ∧ d.val < 0 + 1024) ∧ (0 ≤ i.val ∧ i.val < 0 + 64)); omega)]

/-- Top right: zero. -/
theorem W_topRight (c : Dev nD) (d : Fin 2048) (i : Fin 64) (h : d.val < 1024) :
    Wv m c (ix2 d (colR i)) = (0 : EReal) := by
  have hi : i.val < 64 := i.isLt
  rw [W_apply, dif_neg (by show ¬ ((1024 ≤ d.val ∧ d.val < 1024 + 1024) ∧ (64 ≤ 64 + i.val ∧ 64 + i.val < 64 + 64)); omega),
    dif_neg (by show ¬ ((0 ≤ d.val ∧ d.val < 0 + 1024) ∧ (0 ≤ 64 + i.val ∧ 64 + i.val < 0 + 64)); omega)]

/-- Bottom right: `U2`. -/
theorem W_bottomRight (c : Dev nD) (d : Fin 2048) (i : Fin 64) (h : 1024 ≤ d.val) :
    Wv m c (ix2 d (colR i)) = argU2 m c (ix2 (⟨d.val - 1024, by have := d.isLt; omega⟩ : Fin 1024) i) := by
  have hi : i.val < 64 := i.isLt
  have hd : d.val < 2048 := d.isLt
  rw [W_apply, dif_pos (by show (1024 ≤ d.val ∧ d.val < 1024 + 1024) ∧ (64 ≤ 64 + i.val ∧ 64 + i.val < 64 + 64); omega)]
  congr 1
  funext a
  match a with
  | ⟨0, _⟩ => rfl
  | ⟨1, _⟩ => exact Fin.ext (by show 64 + i.val - 64 = i.val; omega)

/-- The last product's matrix at `(k, o)` is `B[o, k / 64, k % 64]`. -/
theorem Bt_apply (c : Dev nD) (k : Fin 4096) (o : Fin 512) :
    Btv m c (ix2 k o) = argB m c (ix3 o (hi k) (lo k)) := by
  have hk : k.val < 4096 := k.isLt
  rw [V_Bt, truncf_apply]
  refine (transpose_apply [1, 0] _ transposes_S512x4096_S4096x512_1_0 (ix2 k o) (ix2 o k) (fun b => ?_)).trans ?_
  · match b with
    | ⟨0, _⟩ => rfl
    | ⟨1, _⟩ => rfl
  · exact shapeCast_apply _ shapeCasts_S512x64x64_S512x4096 (ix2 o k) (ix3 o (hi k) (lo k))
      (by rw [Shape.rowMajor_val_three, Shape.rowMajor_val_two]
          show (o.val * 64 + k.val / 64) * 64 + k.val % 64 = o.val * 4096 + k.val; omega)

end Cert.KernelIdeal.HostPrefix

end
-- ==== Proof.Body.lean ====
/-
  The value one grid step stores, index by index (at the ideal values): `blockOut` of the four loaded blocks.

  The body lays the two 1024 × 1024 row blocks side by side (`side_by_side_apply`), multiplies by the loaded
  2048 × 128 matrix into a zero accumulator — a plain sum over the 2048 columns (`product1_apply`) —, cuts the result
  into its left and right 64 columns, forms all 64 × 64 products of the two and flattens them row-major: position `k`
  of the flattened row holds left column `k / 64` times right column `k % 64` (`pairs_apply`). The last product
  against the loaded 4096 × 512 matrix is again a plain sum (`product2_apply`). Format changes are the identity.
-/
import proofs.«149522_j71648644432003_2_alg».proof.Proof.Gen.KernelIdeal.Skeleton
import proofs.«149522_j71648644432003_2_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.Tucker

/-- The dimension numbers of the first product: [1024, 2048] × [2048, 128]. -/
abbrev D1 : DotDims S1024x2048 S2048x128 S1024x128 := dot_S1024x2048_S2048x128_S1024x128_1_0_0_1_n_n
/-- The dimension numbers of the last product: [1024, 4096] × [4096, 512]. -/
abbrev D2 : DotDims S1024x4096 S4096x512 S1024x512 := dot_S1024x4096_S4096x512_S1024x512_1_0_0_1_n_n

/-- Output row is the left operand's row. -/
theorem product1_lhs0 (i : S1024x128.Idx) (q : D1.contr.Idx) : (D1.lhsIdx i q 0).val = (i 0).val := by
  unfold DotDims.lhsIdx
  rw [dif_neg (show ¬(0 : Fin S1024x2048.rank) ∈ D1.lhsBatch by decide),
    dif_pos (show (0 : Fin S1024x2048.rank) ∈ D1.lhsNonContracting by decide)]
  rfl
/-- Output column is the right operand's column. -/
theorem product1_rhs1 (i : S1024x128.Idx) (q : D1.contr.Idx) : (D1.rhsIdx i q 1).val = (i 1).val := by
  unfold DotDims.rhsIdx
  rw [dif_neg (show ¬(1 : Fin S2048x128.rank) ∈ D1.rhsBatch by decide),
    dif_pos (show (1 : Fin S2048x128.rank) ∈ D1.rhsNonContracting by decide)]
  rfl

/-- The first product into a zero accumulator, at `(p, n)`: the sum over the 2048 contracted columns. -/
theorem product1_apply (lhs : FVec Idealize.ShloMosaic.Ideal S1024x2048 .bf16) (rhs : FVec Idealize.ShloMosaic.Ideal S2048x128 .bf16)
    (p : Fin 1024) (n : Fin 128) :
    matmul D1 none lhs rhs (constant S1024x128 .f32 0x00000000#32) (ix2 p n)
      = ∑ d : Fin 2048, lhs (ix2 p d) * rhs (ix2 d n) := by
  simp only [matmul]
  rw [Ideal.matmul_constant_zero_apply, ← Equiv.sum_comp (contrEquiv1 D1 2048 rfl rfl).symm]
  refine Finset.sum_congr rfl fun k _ => ?_
  have hk := contrEquiv1_symm_val D1 2048 rfl rfl k
  have el : D1.lhsIdx (ix2 p n) ((contrEquiv1 D1 2048 rfl rfl).symm k) = ix2 p k := funext fun a => Fin.ext (by
    match a with
    | ⟨0, _⟩ => exact product1_lhs0 _ _
    | ⟨1, _⟩ => exact (D1.lhsIdx_val_of_single rfl _ _).trans hk)
  have er : D1.rhsIdx (ix2 p n) ((contrEquiv1 D1 2048 rfl rfl).symm k) = ix2 k n := funext fun a => Fin.ext (by
    match a with
    | ⟨0, _⟩ => exact (D1.rhsIdx_val_of_single rfl _ _).trans hk
    | ⟨1, _⟩ => exact product1_rhs1 _ _)
  rw [el, er]

/-- Output row is the left operand's row. -/
theorem product2_lhs0 (i : S1024x512.Idx) (q : D2.contr.Idx) : (D2.lhsIdx i q 0).val = (i 0).val := by
  unfold DotDims.lhsIdx
  rw [dif_neg (show ¬(0 : Fin S1024x4096.rank) ∈ D2.lhsBatch by decide),
    dif_pos (show (0 : Fin S1024x4096.rank) ∈ D2.lhsNonContracting by decide)]
  rfl
/-- Output column is the right operand's column. -/
theorem product2_rhs1 (i : S1024x512.Idx) (q : D2.contr.Idx) : (D2.rhsIdx i q 1).val = (i 1).val := by
  unfold DotDims.rhsIdx
  rw [dif_neg (show ¬(1 : Fin S4096x512.rank) ∈ D2.rhsBatch by decide),
    dif_pos (show (1 : Fin S4096x512.rank) ∈ D2.rhsNonContracting by decide)]
  rfl

/-- The last product into a zero accumulator, at `(p, o)`: the sum over the 4096 contracted columns. -/
theorem product2_apply (lhs : FVec Idealize.ShloMosaic.Ideal S1024x4096 .bf16) (rhs : FVec Idealize.ShloMosaic.Ideal S4096x512 .bf16)
    (p : Fin 1024) (n : Fin 512) :
    matmul D2 none lhs rhs (constant S1024x512 .f32 0x00000000#32) (ix2 p n)
      = ∑ d : Fin 4096, lhs (ix2 p d) * rhs (ix2 d n) := by
  simp only [matmul]
  rw [Ideal.matmul_constant_zero_apply, ← Equiv.sum_comp (contrEquiv1 D2 4096 rfl rfl).symm]
  refine Finset.sum_congr rfl fun k _ => ?_
  have hk := contrEquiv1_symm_val D2 4096 rfl rfl k
  have el : D2.lhsIdx (ix2 p n) ((contrEquiv1 D2 4096 rfl rfl).symm k) = ix2 p k := funext fun a => Fin.ext (by
    match a with
    | ⟨0, _⟩ => exact product2_lhs0 _ _
    | ⟨1, _⟩ => exact (D2.lhsIdx_val_of_single rfl _ _).trans hk)
  have er : D2.rhsIdx (ix2 p n) ((contrEquiv1 D2 4096 rfl rfl).symm k) = ix2 k n := funext fun a => Fin.ext (by
    match a with
    | ⟨0, _⟩ => exact (D2.rhsIdx_val_of_single rfl _ _).trans hk
    | ⟨1, _⟩ => exact product2_rhs1 _ _)
  rw [el, er]

/-- The two row blocks side by side, at `(p, d)`: the left block for `d < 1024`, the right block at `d − 1024` past it. -/
theorem side_by_side_apply (a b : FVec Idealize.ShloMosaic.Ideal S1024x1024 .f32) (p : Fin 1024) (d : Fin 2048) :
    (concatenate S1024x2048 1 [⟨S1024x1024, (truncf .bf16 a bitsLt_bf16_f32 : FVec Idealize.ShloMosaic.Ideal S1024x1024 .bf16)⟩,
        ⟨S1024x1024, (truncf .bf16 b bitsLt_bf16_f32 : FVec Idealize.ShloMosaic.Ideal S1024x1024 .bf16)⟩]
      concatenates_S1024x1024_S1024x1024_S1024x2048_d1 : FVec Idealize.ShloMosaic.Ideal S1024x2048 .bf16) (ix2 p d) = catRow a b p d := by
  have hd : d.val < 2048 := d.isLt
  unfold catRow
  by_cases h : d.val < 1024
  · rw [dif_pos h]
    exact concatenate_pair_apply_left 1 _ _ concatenates_S1024x1024_S1024x1024_S1024x2048_d1 (ix2 p d) rfl
      (ix2 p (⟨d.val, h⟩ : Fin 1024)) (fun b => match b with | ⟨0, _⟩ => rfl | ⟨1, _⟩ => rfl)
  · rw [dif_neg h]
    exact concatenate_pair_apply_right 1 _ _ concatenates_S1024x1024_S1024x1024_S1024x2048_d1 (ix2 p d) rfl rfl
      (ix2 p (⟨d.val - 1024, by omega⟩ : Fin 1024))
      (fun b hb => match b, hb with
        | ⟨0, _⟩, _ => rfl
        | ⟨1, _⟩, hb => absurd (Fin.ext rfl) hb)
      (by show d.val - 1024 + 1024 = d.val; omega)

/-- All products of a left and a right column of a 128-column array, flattened row-major, from the array. -/
def pairs (y : FVec Idealize.ShloMosaic.Ideal S1024x128 .f32) : FVec Idealize.ShloMosaic.Ideal S1024x4096 .bf16 :=
  shapeCast S1024x4096
    (mulf
      (broadcastTo S1024x64x64 (shapeCast S1024x64x1 (truncf .bf16 (extractStridedSlice S1024x64 ![0, 0] y slices_S1024x128_o0_0_S1024x64) bitsLt_bf16_f32) shapeCasts_S1024x64_S1024x64x1) broadcasts_S1024x64x1_S1024x64x64)
      (broadcastTo S1024x64x64 (shapeCast S1024x1x64 (truncf .bf16 (extractStridedSlice S1024x64 ![0, 64] y slices_S1024x128_o0_64_S1024x64) bitsLt_bf16_f32) shapeCasts_S1024x64_S1024x1x64) broadcasts_S1024x1x64_S1024x64x64))
    shapeCasts_S1024x64x64_S1024x4096

/-- Position `k` of row `p` of the flattened products: left column `k / 64` times right column `k % 64`. -/
theorem pairs_apply (y : FVec Idealize.ShloMosaic.Ideal S1024x128 .f32) (p : Fin 1024) (k : Fin 4096) :
    pairs y (ix2 p k) = y (ix2 p (colL (hi k))) * y (ix2 p (colR (lo k))) := by
  have hk : k.val < 4096 := k.isLt
  unfold pairs
  refine (shapeCast_apply _ shapeCasts_S1024x64x64_S1024x4096 (ix2 p k) (ix3 p (hi k) (lo k))
    (by rw [Shape.rowMajor_val_three, Shape.rowMajor_val_two]
        show (p.val * 64 + k.val / 64) * 64 + k.val % 64 = p.val * 4096 + k.val; omega)).trans ?_
  rw [mulf_apply]
  congr 1
  · refine (broadcastTo_apply _ broadcasts_S1024x64x1_S1024x64x64 (ix3 p (hi k) (lo k)) (ix3 p (hi k) (0 : Fin 1)) (fun a => ?_)).trans ?_
    · match a with
      | ⟨0, _⟩ => show p.val = if (1024 : Nat) = 1 then 0 else p.val; rw [if_neg (by decide)]
      | ⟨1, _⟩ => show k.val / 64 = if (64 : Nat) = 1 then 0 else k.val / 64; rw [if_neg (by decide)]
      | ⟨2, _⟩ => show 0 = if (1 : Nat) = 1 then 0 else k.val % 64; rw [if_pos rfl]
    refine (shapeCast_apply _ shapeCasts_S1024x64_S1024x64x1 (ix3 p (hi k) (0 : Fin 1)) (ix2 p (hi k))
      (by rw [Shape.rowMajor_val_three, Shape.rowMajor_val_two]
          show p.val * 64 + k.val / 64 = (p.val * 64 + k.val / 64) * 1 + 0; omega)).trans ?_
    exact extractStridedSlice_apply _ y slices_S1024x128_o0_0_S1024x64 (ix2 p (hi k)) (ix2 p (colL (hi k)))
      (fun a => match a with
        | ⟨0, _⟩ => by show p.val = 0 + p.val; omega
        | ⟨1, _⟩ => by show k.val / 64 = 0 + k.val / 64; omega)
  · refine (broadcastTo_apply _ broadcasts_S1024x1x64_S1024x64x64 (ix3 p (hi k) (lo k)) (ix3 p (0 : Fin 1) (lo k)) (fun a => ?_)).trans ?_
    · match a with
      | ⟨0, _⟩ => show p.val = if (1024 : Nat) = 1 then 0 else p.val; rw [if_neg (by decide)]
      | ⟨1, _⟩ => show 0 = if (1 : Nat) = 1 then 0 else k.val / 64; rw [if_pos rfl]
      | ⟨2, _⟩ => show k.val % 64 = if (64 : Nat) = 1 then 0 else k.val % 64; rw [if_neg (by decide)]
    refine (shapeCast_apply _ shapeCasts_S1024x64_S1024x1x64 (ix3 p (0 : Fin 1) (lo k)) (ix2 p (lo k))
      (by rw [Shape.rowMajor_val_three, Shape.rowMajor_val_two]
          show p.val * 64 + k.val % 64 = (p.val * 1 + 0) * 64 + k.val % 64; omega)).trans ?_
    exact extractStridedSlice_apply _ y slices_S1024x128_o0_64_S1024x64 (ix2 p (lo k)) (ix2 p (colR (lo k)))
      (fun a => match a with
        | ⟨0, _⟩ => by show p.val = 0 + p.val; omega
        | ⟨1, _⟩ => by show 64 + k.val % 64 = 64 + k.val % 64; rfl)

/-- The stored value is the two products around the flattened pairs. -/
theorem pay_unfold (x0 x1 : FVec Idealize.ShloMosaic.Ideal S1024x1024 .f32) (x2 : FVec Idealize.ShloMosaic.Ideal S2048x128 .bf16)
    (x3 : FVec Idealize.ShloMosaic.Ideal S4096x512 .bf16) :
    k0_pay1 (F := Idealize.ShloMosaic.Ideal) x0 x1 x2 x3
      = matmul D2 none
          (pairs (matmul D1 none
            (concatenate S1024x2048 1 [⟨S1024x1024, (truncf .bf16 x0 bitsLt_bf16_f32 : FVec Idealize.ShloMosaic.Ideal S1024x1024 .bf16)⟩,
                ⟨S1024x1024, (truncf .bf16 x1 bitsLt_bf16_f32 : FVec Idealize.ShloMosaic.Ideal S1024x1024 .bf16)⟩]
              concatenates_S1024x1024_S1024x1024_S1024x2048_d1 : FVec Idealize.ShloMosaic.Ideal S1024x2048 .bf16)
            (shapeCast S2048x128 x2 shapeCasts_S2048x128_S2048x128 : FVec Idealize.ShloMosaic.Ideal S2048x128 .bf16)
            (constant S1024x128 .f32 0x00000000#32)))
          (shapeCast S4096x512 x3 shapeCasts_S4096x512_S4096x512 : FVec Idealize.ShloMosaic.Ideal S4096x512 .bf16)
          (constant S1024x512 .f32 0x00000000#32) := rfl

/-- ONE GRID STEP'S STORED VALUE is `blockOut` of the four loaded blocks. -/
theorem pay_eq (x0 x1 : FVec Idealize.ShloMosaic.Ideal S1024x1024 .f32) (x2 : FVec Idealize.ShloMosaic.Ideal S2048x128 .bf16)
    (x3 : FVec Idealize.ShloMosaic.Ideal S4096x512 .bf16) :
    k0_pay1 (F := Idealize.ShloMosaic.Ideal) x0 x1 x2 x3 = blockOut x0 x1 x2 x3 := by
  funext j
  obtain ⟨p, o, rfl⟩ : ∃ (p : Fin 1024) (o : Fin 512), j = ix2 p o := ⟨j 0, j 1, eq_ix2 j⟩
  rw [pay_unfold]
  refine (product2_apply _ _ p o).trans ?_
  unfold blockOut
  refine Finset.sum_congr rfl fun k _ => ?_
  rw [shapeCast_self, pairs_apply, product1_apply, product1_apply, shapeCast_self]
  simp only [side_by_side_apply]

end Cert.KernelIdeal.Body

end
-- ==== Proof.Whole.lean ====
/-
  From grid steps to the whole result array: after the kernel's run the result array is `G` of the argument arrays.

  Grid step `t` of 16 reads rows `1024·t … 1024·t + 1023` of `x1` and `x2` (blocks `(t, 0)`), the whole 2048 × 128 and
  4096 × 512 matrices the host built (block `(0, 0)` of each), and writes rows `1024·t …` of the result (block
  `(t, 0)`). With the step's stored value `blockOut` of those blocks, the block-diagonal form of the first matrix and
  `Bt[k, o] = B[o, k / 64, k % 64]`, what step `t` writes back is block `t` of `G` (`flushed_eq`); row `r` of the
  result is covered by step `r / 1024` (`cover`); so the array ends at `G` (`final`, `run`).
-/
import proofs.«149522_j71648644432003_2_alg».proof.Proof.Gen.KernelIdeal.Value
import proofs.«149522_j71648644432003_2_alg».proof.Proof.HostPrefix
import proofs.«149522_j71648644432003_2_alg».proof.Proof.Body

set_option maxRecDepth 16384

noncomputable section

namespace Cert.KernelIdeal.Whole

open Cert.KernelIdeal Cert.KernelIdeal.Gen Idealize.ShloMosaic Idealize.ShloMosaic.TcCoe Idealize.ShloMosaic.ValueIdx
open Idealize.SL.Sem Cert.Tucker Cert.KernelIdeal.HostPrefix
open Idealize.ShloMosaic.Pipeline (Dat)

variable (m : (ℓ : Loc nD τ sig) → Buf (Elt Idealize.ShloMosaic.Ideal) ℓ) (ρ : Dev nD → PrngReg)

/-- The result as a function of the arrays as launched. -/
abbrev Gm (c : Dev nD) : S16384x512.Idx → EReal :=
  G (m ((c : Thread nD τ).loc main_arg0)) (m ((c : Thread nD τ).loc main_arg1)) (argU1 m c) (argU2 m c) (argB m c)

theorem hz : (![0, 0] : Fin 2 → Nat) = fun _ => 0 := funext fun a => by fin_cases a <;> rfl

/-- The printed index maps over the 16 grid steps: the row blocks and the result move with the step, the two host-built
    matrices stay at block `(0, 0)`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The step covering row block `q` is step `q`. -/
theorem idx_onto : ∀ q : Fin 16, ∃ t : Fin cfg0.N, win0_4.index t = ![q.val, 0] :=
  (by decide +kernel : ∀ q : Fin 16, ∃ t : Fin grid0.N, win0_4.index t = ![q.val, 0])

/-- WHAT STEP `t` WRITES BACK is block `t` of `G` of the launched arrays. -/
theorem flushed_eq (c : Dev nD) (t : Fin cfg0.N) :
    (dats m 0 c).flushed 4 t = ((cfg0.win 4).blk t).view.read (Elt Idealize.ShloMosaic.Ideal) (Gm m c) := by
  rw [Value.flushed4]
  unfold out0_4
  rw [View.canon_unit_zero hz]
  simp only [View.ld_unit_zero (S := S1024x1024) hz, View.ld_unit_zero (S := S2048x128) hz, View.ld_unit_zero (S := S4096x512) hz]
  rw [Body.pay_eq]
  obtain ⟨e00, e01, e10, e11, e20, e21, e30, e31, e40, e41⟩ := idx_facts t
  have ht : t.val < 16 := by have h : t.val < grid0.N := t.isLt; rw [N_0] at h; exact h
  funext y
  obtain ⟨p, o, rfl⟩ : ∃ (p : Fin 1024) (o : Fin 512), y = ix2 p o := ⟨y 0, y 1, eq_ix2 y⟩
  show blockOut (iblk m c 0 t) (iblk m c 1 t) (iblk m c 2 t) (iblk m c 3 t) (ix2 p o)
    = Gm m c (((cfg0.win 4).blk t).view.emb (ix2 p o))
  have hr : t.val * 1024 + p.val < 16384 := by have := p.isLt; omega
  have eo : ((cfg0.win 4).blk t).view.emb (ix2 p o) = ix2 (⟨t.val * 1024 + p.val, hr⟩ : Fin 16384) o := by
    funext a; apply Fin.ext
    match a with
    | ⟨0, _⟩ => show win0_4.index t (0 : Fin 2) * 1024 + 1 * p.val = t.val * 1024 + p.val; omega
    | ⟨1, _⟩ => show win0_4.index t (1 : Fin 2) * 512 + 1 * o.val = o.val; omega
  rw [eo]
  refine blockOut_eq _ _ (argU1 m c) (argU2 m c) (argB m c) _ _ _ _ p o ⟨t.val * 1024 + p.val, hr⟩
    (fun d => ?_) (fun d => ?_) (fun d i h => ?_) (fun d i h => ?_) (fun d i h => ?_) (fun d i h => ?_) (fun k => ?_)
  · show V m c main_arg0 (((cfg0.win 0).blk t).view.emb (ix2 p d)) = _
    rw [V_main_arg0]
    refine congrArg _ (funext fun a => Fin.ext ?_)
    match a with
    | ⟨0, _⟩ => show win0_0.index t (0 : Fin 2) * 1024 + 1 * p.val = t.val * 1024 + p.val; omega
    | ⟨1, _⟩ => show win0_0.index t (1 : Fin 2) * 1024 + 1 * d.val = d.val; omega
  · show V m c main_arg1 (((cfg0.win 1).blk t).view.emb (ix2 p d)) = _
    rw [V_main_arg1]
    refine congrArg _ (funext fun a => Fin.ext ?_)
    match a with
    | ⟨0, _⟩ => show win0_1.index t (0 : Fin 2) * 1024 + 1 * p.val = t.val * 1024 + p.val; omega
    | ⟨1, _⟩ => show win0_1.index t (1 : Fin 2) * 1024 + 1 * d.val = d.val; omega
  · show Wv m c (((cfg0.win 2).blk t).view.emb (ix2 d (colL i))) = _
    have e : ((cfg0.win 2).blk t).view.emb (ix2 d (colL i)) = ix2 d (colL i) := by
      funext a; apply Fin.ext
      match a with
      | ⟨0, _⟩ => show win0_2.index t (0 : Fin 2) * 2048 + 1 * d.val = d.val; omega
      | ⟨1, _⟩ => show win0_2.index t (1 : Fin 2) * 128 + 1 * (colL i).val = (colL i).val; omega
    rw [e]; exact W_topLeft m c d i h
  · show Wv m c (((cfg0.win 2).blk t).view.emb (ix2 d (colL i))) = _
    have e : ((cfg0.win 2).blk t).view.emb (ix2 d (colL i)) = ix2 d (colL i) := by
      funext a; apply Fin.ext
      match a with
      | ⟨0, _⟩ => show win0_2.index t (0 : Fin 2) * 2048 + 1 * d.val = d.val; omega
      | ⟨1, _⟩ => show win0_2.index t (1 : Fin 2) * 128 + 1 * (colL i).val = (colL i).val; omega
    rw [e]; exact W_bottomLeft m c d i h
  · show Wv m c (((cfg0.win 2).blk t).view.emb (ix2 d (colR i))) = _
    have e : ((cfg0.win 2).blk t).view.emb (ix2 d (colR i)) = ix2 d (colR i) := by
      funext a; apply Fin.ext
      match a with
      | ⟨0, _⟩ => show win0_2.index t (0 : Fin 2) * 2048 + 1 * d.val = d.val; omega
      | ⟨1, _⟩ => show win0_2.index t (1 : Fin 2) * 128 + 1 * (colR i).val = (colR i).val; omega
    rw [e]; exact W_topRight m c d i h
  · show Wv m c (((cfg0.win 2).blk t).view.emb (ix2 d (colR i))) = _
    have e : ((cfg0.win 2).blk t).view.emb (ix2 d (colR i)) = ix2 d (colR i) := by
      funext a; apply Fin.ext
      match a with
      | ⟨0, _⟩ => show win0_2.index t (0 : Fin 2) * 2048 + 1 * d.val = d.val; omega
      | ⟨1, _⟩ => show win0_2.index t (1 : Fin 2) * 128 + 1 * (colR i).val = (colR i).val; omega
    rw [e]; exact W_bottomRight m c d i h
  · show Btv m c (((cfg0.win 3).blk t).view.emb (ix2 k o)) = _
    have e : ((cfg0.win 3).blk t).view.emb (ix2 k o) = ix2 k o := by
      funext a; apply Fin.ext
      match a with
      | ⟨0, _⟩ => show win0_3.index t (0 : Fin 2) * 4096 + 1 * k.val = k.val; omega
      | ⟨1, _⟩ => show win0_3.index t (1 : Fin 2) * 512 + 1 * o.val = o.val; omega
    rw [e]; exact Bt_apply m c k o

/-- An index of the result is in step `t`'s block iff each coordinate is in the block's range on its axis. -/
theorem mem_blk (t : Fin cfg0.N) (i : S16384x512.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v14).slice (win0_4.rect t)).set ↔ _
  rw [View.set_slice_whole, Rect.mem_set_unit]
  exact Iff.rfl

/-- Every index of the result is in the block of step `row / 1024`. -/
theorem cover (i : S16384x512.Idx) : ∃ t : Fin cfg0.N, (cfg0.win 4).flush t = true ∧ i ∈ ((cfg0.win 4).blk t).view.set := by
  have hi0 : (i 0).val < 16384 := (i 0).isLt
  have hi1 : (i 1).val < 512 := (i 1).isLt
  obtain ⟨t, ht⟩ := idx_onto ⟨(i 0).val / 1024, by omega⟩
  have q0 : win0_4.index t (0 : Fin 2) = (i 0).val / 1024 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 512 ≤ (i 1).val ∧ (i 1).val < win0_4.index t (1 : Fin 2) * 512 + 512; omega

/-- THE RESULT ARRAY after the run is `G` of the launched arrays. -/
theorem final (c : Dev nD) : (dats m 0 c).arrAt 4 cfg0.N = Gm m c :=
  (dats m 0 c).arrAt_eq_of_cover 4 (Gm m c) (fun t _ => flushed_eq m c t) cover

/-- The kernel's run: every weakly fair execution ends with the result at `G` of the launched arrays, the arguments unchanged. -/
theorem run : θ_run defs (onTc (τ := τ) (main (F := Idealize.ShloMosaic.Ideal))) ⟨m, fun _ => 0, ρ⟩ fun r => ∀ c : Dev nD,
      r.2.mem ((c : Thread nD τ).loc main_v14) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.RefIsSpec.lean ====
/-
  The reference program's result is `G`.

  Read one operation at a time, the reference's last `dot_general` at `(b, o)` sums over `k < 4096` the flattened product
  array at `(b, k)` times the transposed, flattened core at `(k, o)`. The product array at row-major position
  `b·4096 + k` is the three-axis array at `(b, k / 64, k % 64)`, i.e. the first projection at `(b, k / 64)` times the second
  at `(b, k % 64)`; the core at `(k, o)` is `B` at row-major position `o·4096 + k`, i.e. `B[o, k / 64, k % 64]`. The only
  work is this digit arithmetic.
-/
import proofs.«149522_j71648644432003_2_alg».proof.Proof.Gen.ReferenceIdeal.Read
import proofs.«149522_j71648644432003_2_alg».proof.Proof.Spec

noncomputable section

open scoped BigOperators

namespace Cert.ReferenceIdeal.RefValue

open Cert.ReferenceIdeal Cert.ReferenceIdeal.Read Idealize.ShloMosaic Idealize.ShloMosaic.ValueIdx Cert.Tucker

/-- The reference's result, as a function of the argument arrays, is `G` of them. -/
theorem ref_eq_G (x0 x1 : S16384x1024.Idx → EReal) (x2 x3 : S1024x64.Idx → EReal) (x4 : S512x64x64.Idx → EReal) :
    val_main_v10 (F := Ideal) x0 x1 x2 x3 x4 = G x0 x1 x2 x3 x4 := by
  funext i
  rw [val_main_v10_apply]
  unfold G
  refine Finset.sum_congr rfl fun k _ => ?_
  rw [val_main_v7_apply, val_main_v6_apply, val_main_v4_apply, val_main_v2_apply, val_main_v0_apply,
    val_main_v5_apply, val_main_v3_apply, val_main_v1_apply, val_main_v9_apply, val_main_v8_apply]
  have hk : k.val < 4096 := k.isLt
  have hi0 : (i 0).val < 16384 := (i 0).isLt
  have hi1 : (i 1).val < 512 := (i 1).isLt
  have e1 : ∀ d : Fin 1024,
      lidx_main_v0 (idx_main_v2 (idx_main_v4 (idx_main_v7 (lidx_main_v10 i k)))) d = ix2 (i 0) d := fun d =>
    funext fun a => Fin.ext (by
      match a with
      | ⟨0, _⟩ => show ((i 0).val * 4096 + k.val) / 4096 = (i 0).val; omega
      | ⟨1, _⟩ => rfl)
  have e2 : ∀ d : Fin 1024,
      ridx_main_v0 (idx_main_v2 (idx_main_v4 (idx_main_v7 (lidx_main_v10 i k)))) d = ix2 d (hi k) := fun d =>
    funext fun a => Fin.ext (by
      match a with
      | ⟨0, _⟩ => rfl
      | ⟨1, _⟩ => show ((i 0).val * 4096 + k.val) / 64 % 64 = k.val / 64; omega)
  have e3 : ∀ d : Fin 1024,
      lidx_main_v1 (idx_main_v3 (idx_main_v5 (idx_main_v7 (lidx_main_v10 i k)))) d = ix2 (i 0) d := fun d =>
    funext fun a => Fin.ext (by
      match a with
      | ⟨0, _⟩ => show ((i 0).val * 4096 + k.val) / 4096 = (i 0).val; omega
      | ⟨1, _⟩ => rfl)
  have e4 : ∀ d : Fin 1024,
      ridx_main_v1 (idx_main_v3 (idx_main_v5 (idx_main_v7 (lidx_main_v10 i k)))) d = ix2 d (lo k) := fun d =>
    funext fun a => Fin.ext (by
      match a with
      | ⟨0, _⟩ => rfl
      | ⟨1, _⟩ => show ((i 0).val * 4096 + k.val) % 64 = k.val % 64; omega)
  have e5 : idx_main_v8 (idx_main_v9 (ridx_main_v10 i k)) = ix3 (i 1) (hi k) (lo k) :=
    funext fun a => Fin.ext (by
      match a with
      | ⟨0, _⟩ => show ((i 1).val * 4096 + k.val) / 4096 = (i 1).val; omega
      | ⟨1, _⟩ => show ((i 1).val * 4096 + k.val) / 64 % 64 = k.val / 64; omega
      | ⟨2, _⟩ => show ((i 1).val * 4096 + k.val) % 64 = k.val % 64; omega)
  simp only [e1, e2, e3, e4, e5]
  rfl

end Cert.ReferenceIdeal.RefValue

end
-- ==== Proof.lean ====
/-
  The fused kernel and its reference compute the same array over the extended reals.

  Both programs project the rows of `x1`, `x2` onto the columns of `U1`, `U2`, form for each row all 64 × 64 products of
  the two projections flattened row-major, and contract them against the core `B` flattened the same way:

      out[b, o] = ∑ k < 4096, (x1[b, :]·U1[:, k / 64]) · (x2[b, :]·U2[:, k % 64]) · B[o, k / 64, k % 64]        (Proof/Spec.lean, `G`).

  The reference does it with two separate products. The kernel does both projections with ONE product: it lays the two
  row blocks side by side and multiplies by the block-diagonal matrix `[[U1, 0], [0, U2]]`, which the host builds by writing
  `U1` and `U2` into a zero matrix (Proof/HostPrefix.lean, over Proof/LibScatter.lean). The sum over the 2048 side-by-side
  columns splits into the two halves, and in each projection one half meets only zeros; `x · 0 = 0` for EVERY extended
  real, so the precondition is not used. The order of summation, the 16-step tiling of the rows (Proof/Whole.lean) and
  the changes of float format are not differences at the ideal values.

  The three frames are the generated ones (the reference's is its generated run with the result dropped); the kernel's
  idealization rewrote nothing, so `preserves` is `True`.
-/
import proofs.«149522_j71648644432003_2_alg».proof.Defs
import proofs.«149522_j71648644432003_2_alg».proof.Proof.Gen.Kernel
import proofs.«149522_j71648644432003_2_alg».proof.Proof.Gen.Kernel.Skeleton
import proofs.«149522_j71648644432003_2_alg».proof.Proof.Gen.Kernel.Launch
import proofs.«149522_j71648644432003_2_alg».proof.Proof.Gen.Kernel.Points
import proofs.«149522_j71648644432003_2_alg».proof.Proof.Gen.Kernel.Frame
import proofs.«149522_j71648644432003_2_alg».proof.Proof.Gen.KernelIdeal
import proofs.«149522_j71648644432003_2_alg».proof.Proof.Gen.KernelIdeal.Skeleton
import proofs.«149522_j71648644432003_2_alg».proof.Proof.Gen.KernelIdeal.Launch
import proofs.«149522_j71648644432003_2_alg».proof.Proof.Gen.KernelIdeal.Points
import proofs.«149522_j71648644432003_2_alg».proof.Proof.Gen.KernelIdeal.Frame
import proofs.«149522_j71648644432003_2_alg».proof.Proof.Gen.ReferenceIdeal
import proofs.«149522_j71648644432003_2_alg».proof.Proof.Gen.Pre_finite_inputs
import proofs.«149522_j71648644432003_2_alg».proof.Proof.Gen.KernelIdeal.Value
import proofs.«149522_j71648644432003_2_alg».proof.Proof.Gen.ReferenceIdeal.Run
import proofs.«149522_j71648644432003_2_alg».proof.Proof.Gen.ReferenceIdeal.Read
import proofs.«149522_j71648644432003_2_alg».proof.Proof.Whole
import proofs.«149522_j71648644432003_2_alg».proof.Proof.RefIsSpec
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- The kernel read at the ideal values runs and leaves its arguments unchanged. -/
theorem frame_kernelIdeal : Cert.frame_KernelIdeal := fun m ρ _ => Cert.KernelIdeal.Gen.frame m ρ

/-- The reference runs and leaves its arguments unchanged: its run, with the result dropped. -/
theorem frame_reference : Cert.frame_ReferenceIdeal := fun m ρ _ =>
  (θ_run Cert.ReferenceIdeal.defs _ _).mono (fun _ h c => (h c).2)
    (Cert.ReferenceIdeal.Value.run (F := Idealize.ShloMosaic.Ideal) m ρ)

/-- The idealization rewrote no operation. -/
theorem preserves : Cert.preserves_Kernel_KernelIdeal := trivial

/-- From memories agreeing on the arguments, the kernel's result array ends at `G` of the launched arrays (the 16 grid
    steps each write a block of it) and the reference's at its composed term, which is `G` of the same arrays. -/
theorem algebraic : Cert.algebraic_KernelIdeal_ReferenceIdeal := by
  intro m ρ m' ρ' _ hagree
  refine ⟨fun c => Cert.KernelIdeal.Whole.Gm m c, Cert.KernelIdeal.Whole.run m ρ, ?_⟩
  refine (θ_run Cert.ReferenceIdeal.defs _ _).mono (fun _ h c => ⟨(h c).1.trans ?_, (h c).2⟩)
    (Cert.ReferenceIdeal.Value.run (F := Idealize.ShloMosaic.Ideal) m' ρ')
  rw [Cert.ReferenceIdeal.Read.val_main_v10_eq, Cert.ReferenceIdeal.RefValue.ref_eq_G,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
